-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S_ : Shape := ⟨0, ![]⟩
abbrev S8x4096 : Shape := ⟨2, ![8, 4096]⟩
abbrev S4x8x4096 : Shape := ⟨3, ![4, 8, 4096]⟩
abbrev S8x1024x128 : Shape := ⟨3, ![8, 1024, 128]⟩
abbrev S8x256x128 : Shape := ⟨3, ![8, 256, 128]⟩
abbrev S8x1024 : Shape := ⟨2, ![8, 1024]⟩
abbrev S8x256 : Shape := ⟨2, ![8, 256]⟩
abbrev S1x8x256 : Shape := ⟨3, ![1, 8, 256]⟩
abbrev S8x1024x256 : Shape := ⟨3, ![8, 1024, 256]⟩
abbrev S8x1x256 : Shape := ⟨3, ![8, 1, 256]⟩
abbrev S8x1024x1 : Shape := ⟨3, ![8, 1024, 1]⟩
abbrev S8 : Shape := ⟨1, ![8]⟩

abbrev nBuf : Space → Nat
  | .hbm => 33
  | .vmem => 13
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .bf16⟩
  | .hbm, ⟨3, _⟩ => ⟨S8x4096x128, .bf16⟩
  | .hbm, ⟨4, _⟩ => ⟨S8x4096x128, .f32⟩
  | .hbm, ⟨5, _⟩ => ⟨S_, .f32⟩
  | .hbm, ⟨6, _⟩ => ⟨S8x4096, .f32⟩
  | .hbm, ⟨7, _⟩ => ⟨S8x4096x128, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S4x8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .local _ .vmem, ⟨0, _⟩ => ⟨S8x1024x128, .bf16⟩
  | .local _ .vmem, ⟨1, _⟩ => ⟨S8x1024x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x1024, .f32⟩
  | .local _ .vmem, ⟨5, _⟩ => ⟨S8x1024, .f32⟩
  | .local _ .vmem, ⟨6, _⟩ => ⟨S8x256, .f32⟩
  | .local _ .vmem, ⟨7, _⟩ => ⟨S8x256, .f32⟩
  | .local _ .vmem, ⟨8, _⟩ => ⟨S8x1024, .f32⟩
  | .local _ .vmem, ⟨9, _⟩ => ⟨S8x1024, .f32⟩
  | .local _ .vmem, ⟨10, _⟩ => ⟨S1x8x256, .f32⟩
  | .local _ .vmem, ⟨11, _⟩ => ⟨S1x8x256, .f32⟩
  | .local _ .vmem, ⟨12, _⟩ => ⟨S8x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_21 : BitVec 32 := 0#32
  let v33 : BitVec 1 := Scalar.cmpi .ne v32 c0_i32_21
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  reducesTo_S8x4096x128_S8x4096_d2 : S8x4096x128.ReducesTo [2] S8x4096
  h_S_ : 0 < S_.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x1024x128_S8x1024x128_0_0_0 : ∀ a, (![0, 0, 0] : Fin 3 → Nat) a + S8x1024x128.size a ≤ S8x1024x128.size a
  h_S8x1024x128 : 0 < S8x1024x128.numel
  shapeCasts_S8x1024x128_S8x1024x128 : S8x1024x128.ShapeCasts S8x1024x128
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x1x256 : S8x256.ShapeCasts S8x1x256
  broadcasts_S8x1x256_S8x1024x256 : S8x1x256.Broadcasts S8x1024x256
  reduces_S8x1024x256_S8x1024 : S8x1024x256.Reduces [2] S8x1024
  shapeCasts_S8x1024_S8x1024x1 : S8x1024.ShapeCasts S8x1024x1
  broadcasts_S8x1024x1_S8x1024x256 : S8x1024x1.Broadcasts S8x1024x256
  reduces_S8x1024x256_S8x256 : S8x1024x256.Reduces [1] S8x256
  shapeCasts_S8x256_S1x8x256 : S8x256.ShapeCasts S1x8x256
  inb_S1x8x256_S1x8x256_0_0_0 : ∀ a, (![0, 0, 0] : Fin 3 → Nat) a + S1x8x256.size a ≤ S1x8x256.size a
  h_S1x8x256 : 0 < S1x8x256.numel
  reducesTo_S4x8x4096_S8x4096_d0 : S4x8x4096.ReducesTo [0] S8x4096
  bcast_S_S8x4096 : S_.BroadcastsInDim S8x4096 (![] : Fin 0 → Fin S8x4096.rank)
  reducesTo_S8x4096_S8_d1 : S8x4096.ReducesTo [1] S8
  bcast_S_S8 : S_.BroadcastsInDim S8 (![] : Fin 0 → Fin S8.rank)
  dot_S8x1024x128_S8x256x128_S8x1024x256_2_2_1_1_0_0_wf : DotDims.WF S8x1024x128 S8x256x128 S8x1024x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S8x4096x128.size a
  hwx0_0 : ∀ i : grid0.Coords, EltTy.bits .bf16 = 32 ∨ (Rect.block (s := S8x4096x128) S8x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x128.size a ≤ S8x4096x128.size a
  hwx0_1 : ∀ i : grid0.Coords, EltTy.bits .bf16 = 32 ∨ (Rect.block (s := S8x4096x128) S8x256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x4096.size a
  hwx0_2 : ∀ i : grid0.Coords, EltTy.bits .f32 = 32 ∨ (Rect.block (s := S8x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x4096.size a
  hwx0_3 : ∀ i : grid0.Coords, EltTy.bits .f32 = 32 ∨ (Rect.block (s := S8x4096) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x4096.size a
  hwx0_4 : ∀ i : grid0.Coords, EltTy.bits .f32 = 32 ∨ (Rect.block (s := S8x4096) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256.size a ≤ S4x8x4096.size a
  hwx0_5 : ∀ i : grid0.Coords, EltTy.bits .f32 = 32 ∨ (Rect.block (s := S4x8x4096) S1x8x256.size (cc0_transform_5 i) (hinb0_5 i)).WholeWords (EltTy.packing .f32)

variable [Facts₀]

def dot_S8x1024x128_S8x256x128_S8x1024x256_2_2_1_1_0_0 : DotDims S8x1024x128 S8x256x128 S8x1024x256 where
  lhsContracting := [2]
  rhsContracting := [2]
  lhsNonContracting := [1]
  rhsNonContracting := [1]
  lhsBatch := [0]
  rhsBatch := [0]
  wf := dot_S8x1024x128_S8x256x128_S8x1024x256_2_2_1_1_0_0_wf

abbrev win0_0 : Pipeline.Window sig grid0 :=
  Pipeline.Window.ofSpec (Memref.whole main_v0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S8x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.ChamferSpec.lean ====
/-
  The mathematics of the Chamfer distance on the extended reals, free of any program.

  For two clouds of 4096 points in 128 coordinates (eight batches) the cost of a pair (p, q) is
  `c(p, q) = sqrt (max ((|x_p|² + |y_q|²) - 2 (x_p · y_q)) 0)`, the result is the mean over p of `min_q c(p, q)` plus the
  mean over q of `min_p c(p, q)`, halved. A blocked evaluation keeps, instead of the costs, running minima of the
  partial term `|y_q|² - 2 (x_p · y_q)` (for rows; `|x_p|² - 2 (x_p · y_q)` for columns), adds the own norm after the
  minimum and takes `sqrt (max · 0)` last. The two agree because

    * a minimum over a finite family, taken tile by tile in any grouping, is the minimum over the family
      (`minBelow_step`, `fold_min_tiles`): a minimum is determined by its lower bounds;
    * a monotone map commutes with the minimum of a non-empty finite family (`map_fold_min`); adding a fixed
      extended real and `sqrt (max · 0)` are monotone (`rootPos_mono`), the infinities included;
    * addition of extended reals is commutative and associative, so the own norm may be added before or after the
      cross term (`row_term`, `col_term`). No distributivity or cancellation is used: the laws hold at ±∞ too.
-/
import Idealize.ShloMosaic.PureOps.Ideal
import Idealize.ShloMosaic.PureOps.Ideal.Laws
import Idealize.ShloMosaic.Lib.ValueIdx

noncomputable section

namespace Cert.Chamfer

open Idealize.ShloMosaic

/-! ## Minima of finite families -/

/-- The minimum, from `b`, of a family over a finite type: its lower bounds are the common lower bounds. -/
theorem le_fold_min_univ {ι : Type} [Fintype ι] (c b : EReal) (f : ι → EReal) :
    c ≤ Finset.univ.fold min b f ↔ c ≤ b ∧ ∀ x, c ≤ f x := by
  rw [Finset.le_fold_min]
  exact ⟨fun h => ⟨h.1, fun x => h.2 x (Finset.mem_univ x)⟩, fun h => ⟨h.1, fun x _ => h.2 x⟩⟩

/-- A monotone map commutes with the minimum (from `⊤`) of a non-empty finite family: the minimum is one of the
    family's members or `⊤`, and the image of `⊤` lies above every image. -/
theorem map_fold_min {ι : Type} [Fintype ι] [Nonempty ι] (g : EReal → EReal) (hg : Monotone g) (h : ι → EReal) :
    g (Finset.univ.fold min ⊤ h) = Finset.univ.fold min ⊤ (fun i => g (h i)) := by
  have e : Finset.univ.fold min (g ⊤) (fun i => g (h i)) = g (Finset.univ.fold min ⊤ h) :=
    Finset.fold_hom (op := min) (op' := min) (m := g) (fun a b => hg.map_min)
  rw [← e]
  refine eq_of_forall_le_iff fun c => ?_
  rw [le_fold_min_univ, le_fold_min_univ]
  obtain ⟨x0⟩ := ‹Nonempty ι›
  exact ⟨fun hc => ⟨le_top, hc.2⟩, fun hc => ⟨(hc.2 x0).trans (hg le_top), hc.2⟩⟩

/-- The minimum of the members of a family over `Fin N` whose position is below `k`. -/
def minBelow {N : ℕ} (h : Fin N → EReal) (k : ℕ) : EReal :=
  (Finset.univ.filter fun q : Fin N => q.val < k).fold min ⊤ h

theorem le_minBelow {N : ℕ} (h : Fin N → EReal) (k : ℕ) (c : EReal) :
    c ≤ minBelow h k ↔ ∀ q : Fin N, q.val < k → c ≤ h q := by
  unfold minBelow
  rw [Finset.le_fold_min]
  simp only [Finset.mem_filter, Finset.mem_univ, true_and, le_top]

theorem minBelow_zero {N : ℕ} (h : Fin N → EReal) : minBelow h 0 = ⊤ :=
  top_unique ((le_minBelow h 0 ⊤).mpr fun q hq => absurd hq (Nat.not_lt_zero _))

theorem minBelow_all {N : ℕ} (h : Fin N → EReal) : minBelow h N = Finset.univ.fold min ⊤ h := by
  refine eq_of_forall_le_iff fun c => ?_
  rw [le_minBelow, le_fold_min_univ]
  exact ⟨fun hc => ⟨le_top, fun x => hc x x.isLt⟩, fun hc q _ => hc.2 q⟩

/-- One more tile of width `w`: the running minimum below `w (j + 1)` is the running minimum below `w j` and the
    tile's own minimum. -/
theorem minBelow_step {N : ℕ} (h : Fin N → EReal) (w j : ℕ) (hj : w * (j + 1) ≤ N) :
    minBelow h (w * (j + 1)) = min (minBelow h (w * j))
      (Finset.univ.fold min ⊤ fun q' : Fin w => h ⟨w * j + q'.val, by
        have := q'.isLt; rw [Nat.mul_succ] at hj; omega⟩) := by
  refine eq_of_forall_le_iff fun c => ?_
  rw [le_min_iff, le_minBelow, le_minBelow, le_fold_min_univ]
  constructor
  · intro hc
    refine ⟨fun q hq => hc q (by rw [Nat.mul_succ]; omega), le_top, fun q' => hc _ ?_⟩
    have := q'.isLt; show w * j + q'.val < w * (j + 1); rw [Nat.mul_succ]; omega
  · rintro ⟨h1, -, h2⟩ q hq
    by_cases hlt : q.val < w * j
    · exact h1 q hlt
    · rw [Nat.mul_succ] at hq
      have e : q = ⟨w * j + (q.val - w * j), by omega⟩ :=
        Fin.ext (show q.val = w * j + (q.val - w * j) by omega)
      rw [e]
      exact h2 ⟨q.val - w * j, by omega⟩

/-- Minima of `k` tiles of width `w`, then the minimum of those: the minimum of the whole family. -/
theorem fold_min_tiles {N : ℕ} (h : Fin N → EReal) (k w : ℕ) (hN : w * k = N) :
    (Finset.univ.fold min ⊤ fun i : Fin k => Finset.univ.fold min ⊤ fun p' : Fin w =>
        h ⟨w * i.val + p'.val, by
          have h1 := i.isLt; have h2 := p'.isLt
          have : w * i.val + w ≤ w * k := by rw [← Nat.mul_succ]; exact Nat.mul_le_mul_left w h1
          omega⟩)
      = Finset.univ.fold min ⊤ h := by
  refine eq_of_forall_le_iff fun c => ?_
  rw [le_fold_min_univ, le_fold_min_univ]
  constructor
  · rintro ⟨-, hc⟩
    refine ⟨le_top, fun P => ?_⟩
    have hP := P.isLt
    have hw : 0 < w := by
      rcases Nat.eq_zero_or_pos w with h0 | h0
      · subst h0; omega
      · exact h0
    have hi : P.val / w < k := Nat.div_lt_of_lt_mul (by rw [hN]; exact hP)
    have := (le_fold_min_univ c ⊤ _).mp (hc ⟨P.val / w, hi⟩)
    have h3 := this.2 ⟨P.val % w, Nat.mod_lt _ hw⟩
    have e : P = ⟨w * (P.val / w) + P.val % w, by rw [Nat.div_add_mod]; exact hP⟩ :=
      Fin.ext (show P.val = w * (P.val / w) + P.val % w from (Nat.div_add_mod _ _).symm)
    rw [e]; exact h3
  · rintro ⟨-, hc⟩
    exact ⟨le_top, fun i => (le_fold_min_univ c ⊤ _).mpr ⟨le_top, fun p' => hc _⟩⟩

/-! ## The cost's outer map -/

/-- `sqrt (max t z)`, the map applied last to a squared distance (`z` is the zero the programs clamp at). -/
def rootPos (z t : EReal) : EReal := Ideal.sqrt (max t z)

theorem sqrt_mono_nonneg {a b : EReal} (ha : 0 ≤ a) (hab : a ≤ b) : Ideal.sqrt a ≤ Ideal.sqrt b := by
  induction a using EReal.rec with
  | bot => exact absurd ha (by simp)
  | top => rw [top_le_iff.mp hab]
  | coe r =>
    induction b using EReal.rec with
    | bot => exact absurd hab (by simp)
    | top => show _ ≤ (⊤ : EReal); exact le_top
    | coe s =>
      have hr : 0 ≤ r := EReal.coe_nonneg.mp ha
      have hrs : r ≤ s := EReal.coe_le_coe_iff.mp hab
      show (if r < 0 then (⊥ : EReal) else (Real.sqrt r : EReal)) ≤ (if s < 0 then (⊥ : EReal) else (Real.sqrt s : EReal))
      rw [if_neg (not_lt.mpr hr), if_neg (not_lt.mpr (hr.trans hrs))]
      exact EReal.coe_le_coe_iff.mpr (Real.sqrt_le_sqrt hrs)

/-- Clamping at zero from below and taking the root is monotone on all extended reals. -/
theorem rootPos_mono : Monotone (rootPos 0) := fun a b hab =>
  sqrt_mono_nonneg (le_max_right a 0) (max_le_max hab le_rfl)

/-! ## The two laws -/

/-- Rows: the own norm `a` added after the partial term `b - t` is the full term. -/
theorem row_term (a b t : EReal) : (b - t) + a = (a + b) - t := by
  rw [sub_eq_add_neg, sub_eq_add_neg, add_comm (b + -t) a, add_assoc]

/-- Columns: the other norm `b` added after the partial term `a - t` is the full term. -/
theorem col_term (a b t : EReal) : (a - t) + b = (a + b) - t := by
  rw [sub_eq_add_neg, sub_eq_add_neg, add_right_comm]

/-- Rows, whole: `sqrt (max · 0)` of (the minimum of the partial terms, plus the own norm) is the minimum of the costs. -/
theorem row_law {ι : Type} [Fintype ι] [Nonempty ι] (a : EReal) (b t : ι → EReal) :
    rootPos 0 ((Finset.univ.fold min ⊤ fun q => b q - t q) + a)
      = Finset.univ.fold min ⊤ fun q => rootPos 0 ((a + b q) - t q) := by
  have hg : Monotone fun s : EReal => rootPos 0 (s + a) := fun s s' hs => rootPos_mono (add_le_add hs le_rfl)
  rw [map_fold_min (fun s => rootPos 0 (s + a)) hg]
  simp only [row_term]

/-- Columns, whole. -/
theorem col_law {ι : Type} [Fintype ι] [Nonempty ι] (b : EReal) (a t : ι → EReal) :
    rootPos 0 ((Finset.univ.fold min ⊤ fun p => a p - t p) + b)
      = Finset.univ.fold min ⊤ fun p => rootPos 0 ((a p + b) - t p) := by
  have hg : Monotone fun s : EReal => rootPos 0 (s + b) := fun s s' hs => rootPos_mono (add_le_add hs le_rfl)
  rw [map_fold_min (fun s => rootPos 0 (s + b)) hg]
  simp only [col_term]

/-! ## The patterns -/

theorem ofBits_inf : Ideal.ofBits .f32 0x7F800000#32 = (⊤ : EReal) := by simp [Ideal.ofBits, Ideal.ieee]

/-- The zero both programs sum from and clamp at. -/
abbrev Z : EReal := Ideal.ofBits .f32 0x00000000#32
/-- The factor of the cross term, the pattern of `2.0` (never evaluated: the same word on both sides). -/
abbrev TWO : EReal := Ideal.ofBits .f32 0x40000000#32
/-- The divisor of the means, the pattern of `4096.0` (never evaluated either). -/
abbrev CNT : EReal := Ideal.ofBits .f32 0x45800000#32

theorem Z_eq : Z = 0 := Ideal.ofBits_zero_f32

/-! ## The specification -/

open ValueIdx

/-- A batch of eight clouds of 4096 points in 128 coordinates. -/
abbrev Cloud : Type := (⟨3, ![8, 4096, 128]⟩ : Shape).Idx → EReal

/-- `|x_p|²` in batch `n`, summed from the zero. -/
def sqNorm (x : Cloud) (n : Fin 8) (p : Fin 4096) : EReal := Z + ∑ d : Fin 128, x (ix3 n p d) * x (ix3 n p d)

/-- `x_p · y_q` in batch `n`. -/
def dot (x y : Cloud) (n : Fin 8) (p q : Fin 4096) : EReal := ∑ d : Fin 128, x (ix3 n p d) * y (ix3 n q d)

/-- The cost of the pair (p, q): the distance by the expansion of the square, clamped at zero. -/
def cost (x y : Cloud) (n : Fin 8) (p q : Fin 4096) : EReal :=
  rootPos Z ((sqNorm x n p + sqNorm y n q) - TWO * dot x y n p q)

/-- The distance from `x_p` to the nearest point of `y`. -/
def rowMin (x y : Cloud) (n : Fin 8) (p : Fin 4096) : EReal := Finset.univ.fold min ⊤ fun q : Fin 4096 => cost x y n p q

/-- The distance from `y_q` to the nearest point of `x`. -/
def colMin (x y : Cloud) (n : Fin 8) (q : Fin 4096) : EReal := Finset.univ.fold min ⊤ fun p : Fin 4096 => cost x y n p q

/-- The Chamfer distance of batch `n`: the two means, halved. -/
def chamfer (x y : Cloud) (n : Fin 8) : EReal :=
  Ideal.div (Ideal.div (Z + ∑ p : Fin 4096, rowMin x y n p) CNT + Ideal.div (Z + ∑ q : Fin 4096, colMin x y n q) CNT) TWO

end Cert.Chamfer

end
-- ==== Proof.RefChamfer.lean ====
/-
  The reference computes the specification: its result at batch `n` is `Cert.Chamfer.chamfer x y n`.

  The reference materializes the whole cost matrix `c(p, q)`, takes its minimum along q (rows) and along p (columns),
  averages each and halves the sum. Reading its operations one at a time at an index: the squared norms are sums over the
  128 coordinates from the zero, the product a sum over the contracted coordinate, the two broadcasts place `|x_p|²` at
  (n, p, ·) and `|y_q|²` at (n, ·, q), and each minimum-reduce over one axis is the fold of `min` from `+∞` over that
  axis's 4096 coordinates.
-/
import proofs.«161333_j75685913690395_2_alg».proof.Proof.Gen.ReferenceIdeal.Read
import proofs.«161333_j75685913690395_2_alg».proof.Proof.ChamferSpec

noncomputable section

namespace Cert.Chamfer.Ref

open Cert.ReferenceIdeal Cert.ReferenceIdeal.Gen Cert.ReferenceIdeal.Read Idealize.ShloMosaic Idealize.ShloMosaic.ValueIdx Cert.Chamfer

/-! ### The composed index maps, by coordinates -/

theorem idx_v1 (n : Fin 8) (p : Fin 4096) (k : Fin 128) : idx_main_v1 (ix2 n p) k = ix3 n p k :=
  funext fun a => Fin.ext (by match a with | ⟨0, _⟩ => rfl | ⟨1, _⟩ => rfl | ⟨2, _⟩ => rfl)

theorem idx_v3 (n : Fin 8) (p : Fin 4096) (k : Fin 128) : idx_main_v3 (ix2 n p) k = ix3 n p k :=
  funext fun a => Fin.ext (by match a with | ⟨0, _⟩ => rfl | ⟨1, _⟩ => rfl | ⟨2, _⟩ => rfl)

theorem lidx_v4 (n : Fin 8) (p q : Fin 4096) (k : Fin 128) : lidx_main_v4 (ix3 n p q) k = ix3 n p k :=
  funext fun a => Fin.ext (by match a with | ⟨0, _⟩ => rfl | ⟨1, _⟩ => rfl | ⟨2, _⟩ => rfl)

theorem ridx_v4 (n : Fin 8) (p q : Fin 4096) (k : Fin 128) : ridx_main_v4 (ix3 n p q) k = ix3 n q k :=
  funext fun a => Fin.ext (by match a with | ⟨0, _⟩ => rfl | ⟨1, _⟩ => rfl | ⟨2, _⟩ => rfl)

theorem idx_v57 (n : Fin 8) (p q : Fin 4096) : idx_main_v5 (idx_main_v7 (ix3 n p q)) = ix2 n p :=
  funext fun a => Fin.ext (by match a with | ⟨0, _⟩ => rfl | ⟨1, _⟩ => rfl)

theorem idx_v68 (n : Fin 8) (p q : Fin 4096) : idx_main_v6 (idx_main_v8 (ix3 n p q)) = ix2 n q :=
  funext fun a => Fin.ext (by match a with | ⟨0, _⟩ => rfl | ⟨1, _⟩ => rfl)

theorem idx_v17 (n : Fin 8) (k : Fin 4096) : idx_main_v17 (ix1 n) k = ix2 n k :=
  funext fun a => Fin.ext (by match a with | ⟨0, _⟩ => rfl | ⟨1, _⟩ => rfl)

theorem idx_v21 (n : Fin 8) (k : Fin 4096) : idx_main_v21 (ix1 n) k = ix2 n k :=
  funext fun a => Fin.ext (by match a with | ⟨0, _⟩ => rfl | ⟨1, _⟩ => rfl)

/-! ### The stages at coordinates -/

theorem v1_at (x : Cloud) (n : Fin 8) (p : Fin 4096) : val_main_v1 (F := Ideal) x (ix2 n p) = sqNorm x n p := by
  rw [val_main_v1_apply]
  simp only [idx_v1, val_main_v0_apply, val_main_cst_apply, Ideal.mulf_def, Ideal.ofBits_def]
  rfl

theorem v3_at (y : Cloud) (n : Fin 8) (q : Fin 4096) : val_main_v3 (F := Ideal) y (ix2 n q) = sqNorm y n q := by
  rw [val_main_v3_apply]
  simp only [idx_v3, val_main_v2_apply, val_main_cst_0_apply, Ideal.mulf_def, Ideal.ofBits_def]
  rfl

theorem v4_at (x y : Cloud) (n : Fin 8) (p q : Fin 4096) : val_main_v4 (F := Ideal) x y (ix3 n p q) = dot x y n p q := by
  rw [val_main_v4_apply]
  simp only [lidx_v4, ridx_v4]
  rfl

/-- The cost matrix's entry. -/
theorem v15_at (x y : Cloud) (n : Fin 8) (p q : Fin 4096) : val_main_v15 (F := Ideal) x y (ix3 n p q) = cost x y n p q := by
  rw [val_main_v15_apply, val_main_v14_apply, val_main_v12_apply, val_main_v9_apply, val_main_v11_apply,
    val_main_v7_apply, val_main_v8_apply, val_main_v5_apply, val_main_v6_apply, val_main_v10_apply, val_main_v13_apply,
    val_main_cst_1_apply, val_main_cst_2_apply, idx_v57, idx_v68, v1_at, v3_at, v4_at]
  simp only [Ideal.hostUnary_sqrt_def, Ideal.maximumf_def, Ideal.subf_def, Ideal.addf_def, Ideal.mulf_def, Ideal.ofBits_def]
  rfl

/-- The nearest `y` of `x_p`: the minimum-reduce over the last axis. -/
theorem v16_at (x y : Cloud) (n : Fin 8) (p : Fin 4096) : val_main_v16 (F := Ideal) x y (ix2 n p) = rowMin x y n p := by
  unfold val_main_v16
  rw [Host.reduce_eq_fold_single FloatOps.minimumf _ _ reducesTo_S8x4096x4096_S8x4096_d2 (by decide) h_S_]
  show Finset.univ.fold min (Ideal.ofBits .f32 0x7F800000#32) (fun k : Fin 4096 => val_main_v15 (F := Ideal) x y _) = _
  rw [ofBits_inf]
  unfold rowMin
  refine congrArg (fun f => Finset.univ.fold min ⊤ f) (funext fun k => ?_)
  rw [← v15_at]
  exact congrArg _ (funext fun a => Fin.ext (by match a with | ⟨0, _⟩ => rfl | ⟨1, _⟩ => rfl | ⟨2, _⟩ => rfl))

/-- The nearest `x` of `y_q`: the minimum-reduce over the middle axis. -/
theorem v20_at (x y : Cloud) (n : Fin 8) (q : Fin 4096) : val_main_v20 (F := Ideal) x y (ix2 n q) = colMin x y n q := by
  unfold val_main_v20
  rw [Host.reduce_eq_fold_single FloatOps.minimumf _ _ reducesTo_S8x4096x4096_S8x4096_d1 (by decide) h_S_]
  show Finset.univ.fold min (Ideal.ofBits .f32 0x7F800000#32) (fun k : Fin 4096 => val_main_v15 (F := Ideal) x y _) = _
  rw [ofBits_inf]
  unfold colMin
  refine congrArg (fun f => Finset.univ.fold min ⊤ f) (funext fun k => ?_)
  rw [← v15_at]
  exact congrArg _ (funext fun a => Fin.ext (by match a with | ⟨0, _⟩ => rfl | ⟨1, _⟩ => rfl | ⟨2, _⟩ => rfl))

/-- The reference's result is the specification. -/
theorem result_eq (x y : Cloud) : val_main_v26 (F := Ideal) x y = fun i => chamfer x y (i 0) := by
  funext i
  obtain ⟨n, rfl⟩ : ∃ n : Fin 8, i = ix1 n := ⟨i 0, eq_ix1 i⟩
  rw [val_main_v26_apply, val_main_v24_apply, val_main_v19_apply, val_main_v23_apply, val_main_v17_apply,
    val_main_v21_apply, val_main_v18_apply, val_main_v22_apply, val_main_v25_apply]
  simp only [idx_v17, idx_v21, v16_at, v20_at, val_main_cst_4_apply, val_main_cst_5_apply, val_main_cst_7_apply,
    val_main_cst_8_apply, val_main_cst_9_apply, Ideal.hostDivf_def, Ideal.addf_def, Ideal.ofBits_def]
  rfl

end Cert.Chamfer.Ref

end
-- ==== Proof.KPieces.lean ====
/-
  What the kernel body leaves in its buffers, case by case, as the body's own arithmetic of the blocks it loaded.

  The body at grid point (i, j) works on the i-th tile of 1024 points of `x` and the j-th tile of 256 points of `y`.
  It keeps a running row minimum in a scratch buffer across the j axis: reset to `+∞` at j = 0, then
  `min (running) (tile's row minimum)`; it stores the tile's column minimum as its own block of the column output at every
  point; at j = 15 it also finishes the rows: `sqrt (max (running + |x_p|²) 0)`. Three cases (j = 0; 0 < j < 15; j = 15).
  Each buffer's final contents are one covering store, whose payload reads the whole input blocks (and, where the
  store follows another store into the same scratch, that store's payload).
-/
import proofs.«161333_j75685913690395_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- j = 0: the scratch is reset to `+∞` and then takes the first tile's row minimum. -/
theorem sout_A (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : cond0_0 i) (hc1 : ¬cond0_1 i) (x0 : Vec F S8x1024x128 .bf16) (x1 : Vec F S8x256x128 .bf16) (x2 : Vec F S8x1024 .f32) (x3 : Vec F S8x256 .f32) :
    sout0_A_0 c i a2 h2 a3 h3 a4 h4 a5 h5 a6 h6 a7 h7 a8 h8 hc0 hc1 x0 x1 x2 x3 = k0_pay5 x0 x1 x3 k0_pay2 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S8x1024) hz2, View.readCov_unit_zero (S := S8x1024) _ hz2]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

/-- 0 < j < 15: the scratch takes the minimum of what the point before left and this tile's row minimum. -/
theorem sout_B (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : ¬cond0_0 i) (hc1 : ¬cond0_1 i) (x0 : Vec F S8x1024x128 .bf16) (x1 : Vec F S8x256x128 .bf16) (x2 : Vec F S8x1024 .f32) (x3 : Vec F S8x256 .f32) (xs0 : Vec F S8x1024 .f32) :
    sout0_B_0 c i a2 h2 a3 h3 a4 h4 a5 h5 a6 h6 a7 h7 a8 h8 hc0 hc1 x0 x1 x2 x3 xs0 = k0_pay5 x0 x1 x3 xs0 := by
  unfold sout0_B_0
  rw [View.read_writes_eq_canon _ _ _ (scover0_B_0 c i a2 h2 a3 h3 a4 h4 a5 h5 a6 h6 a7 h7 a8 h8 hc0 hc1 x0 x1 x2 x3 xs0)]
  unfold kernelRun0_B
  dsimp only
  rw [View.canon_unit_zero hz2]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

/-- j = 15: the same update of the scratch. -/
theorem sout_C (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : ¬cond0_0 i) (hc1 : cond0_1 i) (x0 : Vec F S8x1024x128 .bf16) (x1 : Vec F S8x256x128 .bf16) (x2 : Vec F S8x1024 .f32) (x3 : Vec F S8x256 .f32) (xs0 : Vec F S8x1024 .f32) :
    sout0_C_0 c i a2 h2 a3 h3 a4 h4 a5 h5 a6 h6 a7 h7 a8 h8 hc0 hc1 x0 x1 x2 x3 xs0 = k0_pay5 x0 x1 x3 xs0 := by
  unfold sout0_C_0
  rw [View.read_writes_eq_canon _ _ _ (scover0_C_0 c i a2 h2 a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

/-- j = 15: the row output is finished from the scratch as just updated and the tile's own norms. -/
theorem out4_C (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : ¬cond0_0 i) (hc1 : cond0_1 i) (x0 : Vec F S8x1024x128 .bf16) (x1 : Vec F S8x256x128 .bf16) (x2 : Vec F S8x1024 .f32) (x3 : Vec F S8x256 .f32) (xs0 : Vec F S8x1024 .f32) :
    out0_C_4 c i a2 h2 a3 h3 a4 h4 a5 h5 a6 h6 a7 h7 a8 h8 hc0 hc1 x0 x1 x2 x3 xs0 = k0_pay1 (k0_pay3 x2) (k0_pay5 x0 x1 x3 xs0) := by
  unfold out0_C_4
  rw [View.read_writes_eq_canon _ _ _ (cover0_C_4 c i a2 h2 a3 h3 a4 h4 a5 h5 a6 h6 a7 h7 a8 h8 hc0 hc1 x0 x1 x2 x3 xs0)]
  unfold kernelRun0_C
  dsimp only
  sl_unfold_words
  rw [View.canon_unit_zero hz2, View.readCov_unit_zero (S := S8x1024) _ hz2]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

/-- Every point stores the tile's column minimum as its block of the column output. -/
theorem out5_A (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : cond0_0 i) (hc1 : ¬cond0_1 i) (x0 : Vec F S8x1024x128 .bf16) (x1 : Vec F S8x256x128 .bf16) (x2 : Vec F S8x1024 .f32) (x3 : Vec F S8x256 .f32) :
    out0_A_5 c i a2 h2 a3 h3 a4 h4 a5 h5 a6 h6 a7 h7 a8 h8 hc0 hc1 x0 x1 x2 x3 = k0_pay6 x0 x1 x2 := by
  unfold out0_A_5
  rw [View.read_writes_eq_canon _ _ _ (cover0_A_5 c i a2 h2 a3 h3 a4 h4 a5 h5 a6 h6 a7 h7 a8 h8 hc0 hc1 x0 x1 x2 x3)]
  unfold kernelRun0_A
  dsimp only
  rw [View.canon_unit_zero hz3]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

theorem out5_B (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : ¬cond0_0 i) (hc1 : ¬cond0_1 i) (x0 : Vec F S8x1024x128 .bf16) (x1 : Vec F S8x256x128 .bf16) (x2 : Vec F S8x1024 .f32) (x3 : Vec F S8x256 .f32) (xs0 : Vec F S8x1024 .f32) :
    out0_B_5 c i a2 h2 a3 h3 a4 h4 a5 h5 a6 h6 a7 h7 a8 h8 hc0 hc1 x0 x1 x2 x3 xs0 = k0_pay6 x0 x1 x2 := by
  unfold out0_B_5
  rw [View.read_writes_eq_canon _ _ _ (cover0_B_5 c i a2 h2 a3 h3 a4 h4 a5 h5 a6 h6 a7 h7 a8 h8 hc0 hc1 x0 x1 x2 x3 xs0)]
  unfold kernelRun0_B
  dsimp only
  rw [View.canon_unit_zero hz3]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

theorem out5_C (c : Dev nD) (i : grid0.Coords) (a2 : Memref sig .tc .vmem S8x1024x128 .bf16) (h2 : a2.IsWhole) (a3 : Memref sig .tc .vmem S8x256x128 .bf16) (h3 : a3.IsWhole) (a4 : Memref sig .tc .vmem S8x1024 .f32) (h4 : a4.IsWhole) (a5 : Memref sig .tc .vmem S8x256 .f32) (h5 : a5.IsWhole) (a6 : Memref sig .tc .vmem S8x1024 .f32) (h6 : a6.IsWhole) (a7 : Memref sig .tc .vmem S1x8x256 .f32) (h7 : a7.IsWhole) (a8 : Memref sig .tc .vmem S8x1024 .f32) (h8 : a8.IsWhole) (hc0 : ¬cond0_0 i) (hc1 : cond0_1 i) (x0 : Vec F S8x1024x128 .bf16) (x1 : Vec F S8x256x128 .bf16) (x2 : Vec F S8x1024 .f32) (x3 : Vec F S8x256 .f32) (xs0 : Vec F S8x1024 .f32) :
    out0_C_5 c i a2 h2 a3 h3 a4 h4 a5 h5 a6 h6 a7 h7 a8 h8 hc0 hc1 x0 x1 x2 x3 xs0 = k0_pay6 x0 x1 x2 := by
  unfold out0_C_5
  rw [View.read_writes_eq_canon _ _ _ (cover0_C_5 c i a2 h2 a3 h3 a4 h4 a5 h5 a6 h6 a7 h7 a8 h8 hc0 hc1 x0 x1 x2 x3 xs0)]
  unfold kernelRun0_C
  dsimp only
  rw [View.canon_unit_zero hz3]
  simp only [View.readAt_eq_ld, h2.read_unread, h3.read_unread, h4.read_unread, h5.read_unread, h8.read_unread,
    View.ld_unit_zero (S := S8x1024x128) hz3, View.ld_unit_zero (S := S8x256x128) hz3, View.ld_unit_zero (S := S8x256) hz2,
    View.ld_unit_zero (S := S8x1024) hz2]

end Cert.KernelIdeal.Pieces
end
-- ==== Proof.LibKeepdims3.lean ====
/-
  Layout operations of rank-3 arrays with a unit axis in the MIDDLE or at the END, read at an index given by coordinates,
  for any extents: the cast [a, b] → [a, 1, b] and [a, b] → [a, b, 1] (a row or a column kept as a unit axis), and the
  broadcasts [a, 1, b] → [a, c, b] and [a, b, 1] → [a, b, c] (the kept axis repeated). Each is the library's general
  lemma (`shapeCast_apply`: equal row-major positions; `broadcastTo_apply`: a unit axis reads coordinate 0) with the
  coordinates' arithmetic done.
-/
import Idealize.ShloMosaic.Lib.ValueLayout

namespace Cert.LibKeepdims3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibKeepdims3
-- ==== Proof.LibMinReduce.lean ====
/-
  A minimum-reduction over ONE axis read at the ideal values, free of the order the definitions fold in: a kernel's
  `vector.multi_reduction <minimumf>` from the accumulator `+∞`, and the host's one-operand `stablehlo.reduce` with a
  `minimum` body from an initial value `+∞`, are at a result index `j` the fold of `min` from `⊤` over the reduced
  axis's coordinates of the source at `j` with the coordinate inserted (PureOps/Reduce.lean `Shape.Reduces.lift`) —
  for any rank, axis and extents.
-/
import Idealize.ShloMosaic.PureOps.Ideal.Laws

namespace Cert.LibMinReduce

open Idealize.ShloMosaic

/-- The f32 pattern of `+∞` is the top of the extended reals. -/
theorem ofBits_inf : Ideal.ofBits .f32 0x7F800000#32 = (⊤ : EReal) := by simp [Ideal.ofBits, Ideal.ieee]

/-- A kernel's f32 `multi_reduction <minimumf>` over one axis from `+∞`. -/
theorem multiReduction_minimumf_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = Finset.univ.fold min ⊤ fun k : Fin (s.size a) => src (h.lift j k) := by
  rw [multiReduction_minimumf_eq_fold]
  refine (h.fold_filter_drop_single FloatOps.minimumf _ src j).trans ?_
  show Finset.univ.fold min (Ideal.ofBits .f32 0x7F800000#32) (src ∘ h.lift j) = _
  rw [ofBits_inf]
  rfl

/-- The host's `stablehlo.reduce` with a `minimum` body over one axis, its initial value the f32 `+∞`. -/
theorem hostReduce_minimumf_single {s t u : Shape} {a : Fin s.rank} (x : s.Idx → EReal) (init : u.Idx → EReal)
    (h' : s.ReducesTo [a] t) (h : s.Reduces [a] t) (hu : 0 < u.numel)
    (hinit : init (Shape.Idx.first hu) = Ideal.ofBits .f32 0x7F800000#32) (j : t.Idx) :
    Host.reduce (FloatOps.minimumf (F := Ideal) (φ := .f32)) x init h' hu j
      = Finset.univ.fold min ⊤ fun k : Fin (s.size a) => x (h.lift j k) := by
  rw [Host.reduce_eq_fold_single (FloatOps.minimumf (F := Ideal) (φ := .f32)) x init h' h hu j, hinit]
  show Finset.univ.fold min (Ideal.ofBits .f32 0x7F800000#32) (x ∘ h.lift j) = _
  rw [ofBits_inf]
  rfl

end Cert.LibMinReduce
-- ==== Proof.KPay.lean ====
/-
  The kernel body's arithmetic at the ideal values, read at an index.

  For a tile of 1024 points of `x` (block `x0`, their squared norms `x2`) and a tile of 256 points of `y` (block `x1`,
  squared norms `x3`), in batch `n`:
    * the matrix product at (n, p, q) is `∑ d, x0 (n, p, d) · x1 (n, q, d)` (into a zero accumulator);
    * the scratch update at (n, p) is `min (running) (min over the tile's q of x3 (n, q) - 2 · product)`;
    * the column block at (·, n, q) is `min over the tile's p of x2 (n, p) - 2 · product`;
    * the finished row at (n, p) is `sqrt (max (running + x2 (n, p)) 0)`; the reset value is `+∞`.
  The keepdims casts and broadcasts only place `x3 (n, q)` at (n, ·, q) and `x2 (n, p)` at (n, p, ·).
-/
import proofs.«161333_j75685913690395_2_alg».proof.Proof.Gen.KernelIdeal.Skeleton
import proofs.«161333_j75685913690395_2_alg».proof.Proof.ChamferSpec
import proofs.«161333_j75685913690395_2_alg».proof.Proof.LibKeepdims3
import proofs.«161333_j75685913690395_2_alg».proof.Proof.LibMinReduce
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Chamfer
open Cert.LibKeepdims3 Cert.LibMinReduce

/-! ### The product's operand indices, by coordinates -/

theorem lhs0 (i : S8x1024x256.Idx) (q : dot_S8x1024x128_S8x256x128_S8x1024x256_2_2_1_1_0_0.contr.Idx) : (dot_S8x1024x128_S8x256x128_S8x1024x256_2_2_1_1_0_0.lhsIdx i q 0).val = (i 0).val := by
  unfold DotDims.lhsIdx
  rw [dif_pos (show (0 : Fin S8x1024x128.rank) ∈ dot_S8x1024x128_S8x256x128_S8x1024x256_2_2_1_1_0_0.lhsBatch by decide)]
  rfl
theorem lhs1 (i : S8x1024x256.Idx) (q : dot_S8x1024x128_S8x256x128_S8x1024x256_2_2_1_1_0_0.contr.Idx) : (dot_S8x1024x128_S8x256x128_S8x1024x256_2_2_1_1_0_0.lhsIdx i q 1).val = (i 1).val := by
  unfold DotDims.lhsIdx
  rw [dif_neg (show ¬(1 : Fin S8x1024x128.rank) ∈ dot_S8x1024x128_S8x256x128_S8x1024x256_2_2_1_1_0_0.lhsBatch by decide),
    dif_pos (show (1 : Fin S8x1024x128.rank) ∈ dot_S8x1024x128_S8x256x128_S8x1024x256_2_2_1_1_0_0.lhsNonContracting by decide)]
  rfl
theorem lhs2 (i : S8x1024x256.Idx) (q : dot_S8x1024x128_S8x256x128_S8x1024x256_2_2_1_1_0_0.contr.Idx) : (dot_S8x1024x128_S8x256x128_S8x1024x256_2_2_1_1_0_0.lhsIdx i q 2).val = (q ⟨0, by decide⟩).val :=
  dot_S8x1024x128_S8x256x128_S8x1024x256_2_2_1_1_0_0.lhsIdx_val_of_single rfl i q
theorem rhs0 (i : S8x1024x256.Idx) (q : dot_S8x1024x128_S8x256x128_S8x1024x256_2_2_1_1_0_0.contr.Idx) : (dot_S8x1024x128_S8x256x128_S8x1024x256_2_2_1_1_0_0.rhsIdx i q 0).val = (i 0).val := by
  unfold DotDims.rhsIdx
  rw [dif_pos (show (0 : Fin S8x256x128.rank) ∈ dot_S8x1024x128_S8x256x128_S8x1024x256_2_2_1_1_0_0.rhsBatch by decide)]
  rfl
theorem rhs1 (i : S8x1024x256.Idx) (q : dot_S8x1024x128_S8x256x128_S8x1024x256_2_2_1_1_0_0.contr.Idx) : (dot_S8x1024x128_S8x256x128_S8x1024x256_2_2_1_1_0_0.rhsIdx i q 1).val = (i 2).val := by
  unfold DotDims.rhsIdx
  rw [dif_neg (show ¬(1 : Fin S8x256x128.rank) ∈ dot_S8x1024x128_S8x256x128_S8x1024x256_2_2_1_1_0_0.rhsBatch by decide),
    dif_pos (show (1 : Fin S8x256x128.rank) ∈ dot_S8x1024x128_S8x256x128_S8x1024x256_2_2_1_1_0_0.rhsNonContracting by decide)]
  rfl
theorem rhs2 (i : S8x1024x256.Idx) (q : dot_S8x1024x128_S8x256x128_S8x1024x256_2_2_1_1_0_0.contr.Idx) : (dot_S8x1024x128_S8x256x128_S8x1024x256_2_2_1_1_0_0.rhsIdx i q 2).val = (q ⟨0, by decide⟩).val :=
  dot_S8x1024x128_S8x256x128_S8x1024x256_2_2_1_1_0_0.rhsIdx_val_of_single rfl i q

/-- The tile's product at (n, p, q). -/
theorem pay4_at (x0 : FVec Ideal S8x1024x128 .bf16) (x1 : FVec Ideal S8x256x128 .bf16) (n : Fin 8) (p : Fin 1024) (q : Fin 256) :
    k0_pay4 (F := Ideal) x0 x1 (ix3 n p q) = ∑ d : Fin 128, x0 (ix3 n p d) * x1 (ix3 n q d) := by
  unfold k0_pay4
  rw [shapeCast_self, shapeCast_self]
  simp only [matmul]
  rw [Ideal.matmul_constant_zero_apply, ← Equiv.sum_comp (contrEquiv1 dot_S8x1024x128_S8x256x128_S8x1024x256_2_2_1_1_0_0 128 rfl rfl).symm]
  refine Finset.sum_congr rfl fun k _ => ?_
  have hk := contrEquiv1_symm_val dot_S8x1024x128_S8x256x128_S8x1024x256_2_2_1_1_0_0 128 rfl rfl k
  have el : dot_S8x1024x128_S8x256x128_S8x1024x256_2_2_1_1_0_0.lhsIdx (ix3 n p q) ((contrEquiv1 dot_S8x1024x128_S8x256x128_S8x1024x256_2_2_1_1_0_0 128 rfl rfl).symm k) = ix3 n p k := funext fun a => Fin.ext (by
    match a with
    | ⟨0, _⟩ => exact lhs0 _ _
    | ⟨1, _⟩ => exact lhs1 _ _
    | ⟨2, _⟩ => exact (lhs2 _ _).trans hk)
  have er : dot_S8x1024x128_S8x256x128_S8x1024x256_2_2_1_1_0_0.rhsIdx (ix3 n p q) ((contrEquiv1 dot_S8x1024x128_S8x256x128_S8x1024x256_2_2_1_1_0_0 128 rfl rfl).symm k) = ix3 n q k := funext fun a => Fin.ext (by
    match a with
    | ⟨0, _⟩ => exact rhs0 _ _
    | ⟨1, _⟩ => exact rhs1 _ _
    | ⟨2, _⟩ => exact (rhs2 _ _).trans hk)
  rw [el, er]

/-- The partial term of a pair inside a tile: a norm less twice the product. -/
def part (x0 : FVec Ideal S8x1024x128 .bf16) (x1 : FVec Ideal S8x256x128 .bf16) (nrm : EReal) (n : Fin 8) (p : Fin 1024) (q : Fin 256) : EReal :=
  nrm - TWO * ∑ d : Fin 128, x0 (ix3 n p d) * x1 (ix3 n q d)

/-- The scratch update at (n, p): the running minimum and the tile's row minimum. -/
theorem pay5_at (x0 : FVec Ideal S8x1024x128 .bf16) (x1 : FVec Ideal S8x256x128 .bf16) (x3 : FVec Ideal S8x256 .f32)
    (acc : FVec Ideal S8x1024 .f32) (n : Fin 8) (p : Fin 1024) :
    k0_pay5 (F := Ideal) x0 x1 x3 acc (ix2 n p)
      = min (acc (ix2 n p)) (Finset.univ.fold min ⊤ fun q : Fin 256 => part x0 x1 (x3 (ix2 n q)) n p q) := by
  unfold k0_pay5
  dsimp only
  refine (congrFun (shapeCast_self _ _) _).trans ?_
  refine congrArg (min (acc (ix2 n p))) ?_
  refine (multiReduction_minimumf_single _ reduces_S8x1024x256_S8x1024 _ _ (ix2 n p)).trans ?_
  show Finset.univ.fold min ⊤ (fun q : Fin 256 => _) = _
  refine congrArg (fun f => Finset.univ.fold min ⊤ f) (funext fun q => ?_)
  have e : reduces_S8x1024x256_S8x1024.lift (ix2 n p) q = ix3 n p q :=
    funext fun a => Fin.ext (by match a with | ⟨0, _⟩ => rfl | ⟨1, _⟩ => rfl | ⟨2, _⟩ => rfl)
  refine (congrArg _ e).trans ?_
  show (broadcastTo S8x1024x256 (shapeCast S8x1x256 (shapeCast S8x256 x3 shapeCasts_S8x256_S8x256) shapeCasts_S8x256_S8x1x256)
      broadcasts_S8x1x256_S8x1024x256 (ix3 n p q)) - TWO * k0_pay4 (F := Ideal) x0 x1 (ix3 n p q) = _
  unfold part
  refine congrArg₂ (· - ·) ?_ (congrArg (TWO * ·) (pay4_at x0 x1 n p q))
  refine (broadcastTo_a1b_acb_apply _ broadcasts_S8x1x256_S8x1024x256 n p q).trans ?_
  refine (shapeCast_ab_a1b_apply _ shapeCasts_S8x256_S8x1x256 n 0 q).trans ?_
  exact congrFun (shapeCast_self _ _) _

/-- The column block at (·, n, q): the tile's column minimum. -/
theorem pay6_at (x0 : FVec Ideal S8x1024x128 .bf16) (x1 : FVec Ideal S8x256x128 .bf16) (x2 : FVec Ideal S8x1024 .f32)
    (u : Fin 1) (n : Fin 8) (q : Fin 256) :
    k0_pay6 (F := Ideal) x0 x1 x2 (ix3 u n q)
      = Finset.univ.fold min ⊤ fun p : Fin 1024 => part x0 x1 (x2 (ix2 n p)) n p q := by
  unfold k0_pay6
  dsimp only
  refine (shapeCast_ab_1ab_apply _ shapeCasts_S8x256_S1x8x256 u n q).trans ?_
  refine (multiReduction_minimumf_single _ reduces_S8x1024x256_S8x256 _ _ (ix2 n q)).trans ?_
  show Finset.univ.fold min ⊤ (fun p : Fin 1024 => _) = _
  refine congrArg (fun f => Finset.univ.fold min ⊤ f) (funext fun p => ?_)
  have e : reduces_S8x1024x256_S8x256.lift (ix2 n q) p = ix3 n p q :=
    funext fun a => Fin.ext (by match a with | ⟨0, _⟩ => rfl | ⟨1, _⟩ => rfl | ⟨2, _⟩ => rfl)
  refine (congrArg _ e).trans ?_
  show (broadcastTo S8x1024x256 (shapeCast S8x1024x1 (k0_pay3 (F := Ideal) x2) shapeCasts_S8x1024_S8x1024x1)
      broadcasts_S8x1024x1_S8x1024x256 (ix3 n p q)) - TWO * k0_pay4 (F := Ideal) x0 x1 (ix3 n p q) = _
  unfold part
  refine congrArg₂ (· - ·) ?_ (congrArg (TWO * ·) (pay4_at x0 x1 n p q))
  refine (broadcastTo_ab1_abc_apply _ broadcasts_S8x1024x1_S8x1024x256 n p q).trans ?_
  refine (shapeCast_ab_ab1_apply _ shapeCasts_S8x1024_S8x1024x1 n p 0).trans ?_
  unfold k0_pay3
  exact congrFun (shapeCast_self _ _) _

/-- The finished row at (n, p). -/
theorem pay1_at (x2 acc : FVec Ideal S8x1024 .f32) (n : Fin 8) (p : Fin 1024) :
    k0_pay1 (F := Ideal) (k0_pay3 (F := Ideal) x2) acc (ix2 n p) = rootPos Z (acc (ix2 n p) + x2 (ix2 n p)) := by
  unfold k0_pay1 k0_pay3
  dsimp only
  rw [shapeCast_self]
  rfl

/-- The reset value: `+∞` everywhere. -/
theorem pay2_at (j : S8x1024.Idx) : k0_pay2 (F := Ideal) j = (⊤ : EReal) := by
  unfold k0_pay2
  rw [shapeCast_self]
  exact Cert.LibMinReduce.ofBits_inf

end Cert.KernelIdeal.Pay

end
-- ==== Proof.KBlocks.lean ====
/-
  Where each window's block sits in its array.

  The grid is 4 × 16: point `t` is (i, j) = (t / 16, t % 16). The `x` windows (the cloud's tile and its norms) move
  with i in steps of 1024 points, the `y` windows with j in steps of 256 points; the batch axis and the coordinate
  axis are whole. So the block entries the body loads at point `t` are the arrays' entries at point
  `1024 i + p` of `x` and `256 j + q` of `y`.
-/
import proofs.«161333_j75685913690395_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The printed index maps, decided once over the 64 grid points. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16
    ∧ win0_3.index t (0 : Fin 2) = 0 ∧ win0_3.index t (1 : Fin 2) = t.val % 16
    ∧ win0_4.index t (0 : Fin 2) = 0 ∧ win0_4.index t (1 : Fin 2) = t.val / 16
    ∧ win0_5.index t (0 : Fin 3) = t.val / 16 ∧ win0_5.index t (1 : Fin 3) = 0 ∧ win0_5.index t (2 : Fin 3) = t.val % 16 :=
  (by decide +kernel : ∀ t : Fin grid0.N, _)

theorem N64 : cfg0.N = 64 := N_0

/-- Point `1024 i + p` of a cloud: the `p`-th point of its `i`-th tile of 1024. -/
def rowIx (i : ℕ) (hi : i < 4) (p : Fin 1024) : Fin 4096 := ⟨1024 * i + p.val, by have := p.isLt; omega⟩

/-- Point `256 j + q` of a cloud: the `q`-th point of its `j`-th tile of 256. -/
def colIx (j : ℕ) (hj : j < 16) (q : Fin 256) : Fin 4096 := ⟨256 * j + q.val, by have := q.isLt; omega⟩

theorem lt64 (t : Fin cfg0.N) : t.val < 64 := lt_of_lt_of_eq t.isLt N64
theorem div_lt (t : Fin cfg0.N) : t.val / 16 < 4 := by have := lt64 t; omega
theorem mod_lt (t : Fin cfg0.N) : t.val % 16 < 16 := Nat.mod_lt _ (by decide)

/-- The blocks at point `t`, typed as the body's loads. -/
def B0 (t : Fin cfg0.N) : FVec Ideal S8x1024x128 .bf16 := iblk m c 0 t
def B1 (t : Fin cfg0.N) : FVec Ideal S8x256x128 .bf16 := iblk m c 1 t
def B2 (t : Fin cfg0.N) : FVec Ideal S8x1024 .f32 := iblk m c 2 t
def B3 (t : Fin cfg0.N) : FVec Ideal S8x256 .f32 := iblk m c 3 t

/-- The arrays as the region finds them. -/
def XB : S8x4096x128.Idx → EReal := V m c main_v0
def YB : S8x4096x128.Idx → EReal := V m c main_v1
def X2 : S8x4096.Idx → EReal := V m c main_v3
def Y2 : S8x4096.Idx → EReal := V m c main_v5

theorem B0_at (t : Fin cfg0.N) (n : Fin 8) (p : Fin 1024) (d : Fin 128) :
    B0 m c t (ix3 n p d) = XB m c (ix3 n (rowIx (t.val / 16) (div_lt t) p) d) := by
  obtain ⟨e00, e01, e02, -⟩ := idx_facts t
  unfold B0 XB iblk
  rw [View.read_apply]
  show V m c main_v0 (((cfg0.win 0).blk t).view.emb (ix3 n p d)) = V m c main_v0 _
  refine congrArg (V m c main_v0) (funext fun a => Fin.ext ?_)
  match a with
  | ⟨0, _⟩ => show win0_0.index t (0 : Fin 3) * 8 + 1 * n.val = n.val; rw [e00]; omega
  | ⟨1, _⟩ => show win0_0.index t (1 : Fin 3) * 1024 + 1 * p.val = 1024 * (t.val / 16) + p.val; rw [e01]; omega
  | ⟨2, _⟩ => show win0_0.index t (2 : Fin 3) * 128 + 1 * d.val = d.val; rw [e02]; omega

theorem B1_at (t : Fin cfg0.N) (n : Fin 8) (q : Fin 256) (d : Fin 128) :
    B1 m c t (ix3 n q d) = YB m c (ix3 n (colIx (t.val % 16) (mod_lt t) q) d) := by
  obtain ⟨-, -, -, e10, e11, e12, -⟩ := idx_facts t
  unfold B1 YB iblk
  rw [View.read_apply]
  show V m c main_v1 (((cfg0.win 1).blk t).view.emb (ix3 n q d)) = V m c main_v1 _
  refine congrArg (V m c main_v1) (funext fun a => Fin.ext ?_)
  match a with
  | ⟨0, _⟩ => show win0_1.index t (0 : Fin 3) * 8 + 1 * n.val = n.val; rw [e10]; omega
  | ⟨1, _⟩ => show win0_1.index t (1 : Fin 3) * 256 + 1 * q.val = 256 * (t.val % 16) + q.val; rw [e11]; omega
  | ⟨2, _⟩ => show win0_1.index t (2 : Fin 3) * 128 + 1 * d.val = d.val; rw [e12]; omega

theorem B2_at (t : Fin cfg0.N) (n : Fin 8) (p : Fin 1024) :
    B2 m c t (ix2 n p) = X2 m c (ix2 n (rowIx (t.val / 16) (div_lt t) p)) := by
  obtain ⟨-, -, -, -, -, -, e20, e21, -⟩ := idx_facts t
  unfold B2 X2 iblk
  rw [View.read_apply]
  show V m c main_v3 (((cfg0.win 2).blk t).view.emb (ix2 n p)) = V m c main_v3 _
  refine congrArg (V m c main_v3) (funext fun a => Fin.ext ?_)
  match a with
  | ⟨0, _⟩ => show win0_2.index t (0 : Fin 2) * 8 + 1 * n.val = n.val; rw [e20]; omega
  | ⟨1, _⟩ => show win0_2.index t (1 : Fin 2) * 1024 + 1 * p.val = 1024 * (t.val / 16) + p.val; rw [e21]; omega

theorem B3_at (t : Fin cfg0.N) (n : Fin 8) (q : Fin 256) :
    B3 m c t (ix2 n q) = Y2 m c (ix2 n (colIx (t.val % 16) (mod_lt t) q)) := by
  obtain ⟨-, -, -, -, -, -, -, -, e30, e31, -⟩ := idx_facts t
  unfold B3 Y2 iblk
  rw [View.read_apply]
  show V m c main_v5 (((cfg0.win 3).blk t).view.emb (ix2 n q)) = V m c main_v5 _
  refine congrArg (V m c main_v5) (funext fun a => Fin.ext ?_)
  match a with
  | ⟨0, _⟩ => show win0_3.index t (0 : Fin 2) * 8 + 1 * n.val = n.val; rw [e30]; omega
  | ⟨1, _⟩ => show win0_3.index t (1 : Fin 2) * 256 + 1 * q.val = 256 * (t.val % 16) + q.val; rw [e31]; omega

end Cert.KernelIdeal.Blocks

end
-- ==== Proof.KChain.lean ====
/-
  What the kernel's buffers hold after each grid point, as minima of the arrays' partial terms.

  Write `hrow n P q = |y_q|² - 2 (x_P · y_q)` and `hcol n Q P = |x_P|² - 2 (x_P · y_Q)` over the arrays as the region finds
  them. At point (i, j):
    * the scratch holds, at (n, p), the minimum of `hrow n (1024 i + p) q` over the points `q < 256 (j + 1)` of `y` —
      by induction on the point along a row of the grid: reset and first tile at j = 0, one more tile at each later j
      (`scr_eq`); a minimum over the first j + 1 tiles is the minimum over the first j tiles and the (j + 1)-th;
    * the column output's block holds, at (·, n, q), the minimum of `hcol n (256 j + q) (1024 i + p)` over the tile's
      1024 points p (`col_out`);
    * at j = 15 the row output's block holds `sqrt (max (min over all q + |x_P|²) 0)` at (n, p), P = 1024 i + p
      (`row_out`).
-/
import proofs.«161333_j75685913690395_2_alg».proof.Proof.KPieces
import proofs.«161333_j75685913690395_2_alg».proof.Proof.KPay
import proofs.«161333_j75685913690395_2_alg».proof.Proof.KBlocks

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Cert.Chamfer Cert.KernelIdeal.Blocks Cert.KernelIdeal.Pay Cert.KernelIdeal.Pieces

variable (m : (ℓ : Loc nD τ sig) → Buf (Elt Ideal) ℓ) (c : Dev nD)

/-- The row direction's partial term of the pair (P, q) in batch `n`. -/
def hrow (n : Fin 8) (P q : Fin 4096) : EReal :=
  Y2 m c (ix2 n q) - TWO * ∑ d : Fin 128, XB m c (ix3 n P d) * YB m c (ix3 n q d)

/-- The column direction's partial term of the pair (P, Q) in batch `n`. -/
def hcol (n : Fin 8) (Q P : Fin 4096) : EReal :=
  X2 m c (ix2 n P) - TWO * ∑ d : Fin 128, XB m c (ix3 n P d) * YB m c (ix3 n Q d)

/-- A tile's row partial term is the arrays'. -/
theorem part_row (t : Fin cfg0.N) (n : Fin 8) (p : Fin 1024) (q : Fin 256) :
    part (B0 m c t) (B1 m c t) (B3 m c t (ix2 n q)) n p q
      = hrow m c n (rowIx (t.val / 16) (div_lt t) p) (colIx (t.val % 16) (mod_lt t) q) := by
  unfold part hrow
  rw [B3_at]
  simp only [B0_at, B1_at]

/-- A tile's column partial term is the arrays'. -/
theorem part_col (t : Fin cfg0.N) (n : Fin 8) (p : Fin 1024) (q : Fin 256) :
    part (B0 m c t) (B1 m c t) (B2 m c t (ix2 n p)) n p q
      = hcol m c n (colIx (t.val % 16) (mod_lt t) q) (rowIx (t.val / 16) (div_lt t) p) := by
  unfold part hcol
  rw [B2_at]
  simp only [B0_at, B1_at]

/-! ### The scratch, as vectors -/

/-- At the first point of a grid row the scratch is reset and takes the first tile. -/
theorem scr_A (t : Fin cfg0.N) (h0 : t.val % 16 = 0) :
    (outsAt0 m c t.val t.isLt).2.2 = k0_pay5 (F := Ideal) (B0 m c t) (B1 m c t) (B3 m c t) (k0_pay2 (F := Ideal)) := by
  have h1 : ¬t.val % 16 = 15 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)

/-- At a later point it takes one more tile over what the point before left. -/
theorem scr_BC (t : Fin cfg0.N) (h0 : ¬t.val % 16 = 0) :
    (outsAt0 m c t.val t.isLt).2.2 = k0_pay5 (F := Ideal) (B0 m c t) (B1 m c t) (B3 m c t) (outsAt0 m c (t.val - 1) (Nat.lt_of_le_of_lt (Nat.sub_le _ _) t.isLt)).2.2 := by
  by_cases h1 : t.val % 16 = 15
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2

/-! ### The scratch, at an index: the running minimum -/

theorem scr_first (t : Fin cfg0.N) (h0 : t.val % 16 = 0) (n : Fin 8) (p : Fin 1024) :
    (outsAt0 m c t.val t.isLt).2.2 (ix2 n p)
      = minBelow (hrow m c n (rowIx (t.val / 16) (div_lt t) p)) (256 * (t.val % 16 + 1)) := by
  rw [scr_A m c t h0, pay5_at, pay2_at]
  refine Eq.trans ?_ (minBelow_step (hrow m c n (rowIx (t.val / 16) (div_lt t) p)) 256 (t.val % 16) (by have := mod_lt t; omega)).symm
  refine congrArg₂ min ?_ (congrArg (fun f => Finset.univ.fold min ⊤ f) (funext fun q => part_row m c t n p q))
  rw [h0, Nat.mul_zero, minBelow_zero]

theorem scr_next (t : Fin cfg0.N) (h0 : ¬t.val % 16 = 0) (n : Fin 8) (p : Fin 1024)
    (ih : (outsAt0 m c (t.val - 1) (Nat.lt_of_le_of_lt (Nat.sub_le _ _) t.isLt)).2.2 (ix2 n p)
      = minBelow (hrow m c n (rowIx (t.val / 16) (div_lt t) p)) (256 * (t.val % 16))) :
    (outsAt0 m c t.val t.isLt).2.2 (ix2 n p)
      = minBelow (hrow m c n (rowIx (t.val / 16) (div_lt t) p)) (256 * (t.val % 16 + 1)) := by
  rw [scr_BC m c t h0, pay5_at]
  refine Eq.trans ?_ (minBelow_step (hrow m c n (rowIx (t.val / 16) (div_lt t) p)) 256 (t.val % 16) (by have := mod_lt t; omega)).symm
  exact congrArg₂ min ih (congrArg (fun f => Finset.univ.fold min ⊤ f) (funext fun q => part_row m c t n p q))

/-- THE RUNNING MINIMUM: after point `t` the scratch holds the minimum over the first `t % 16 + 1` tiles of `y`. -/
theorem scr_eq (n : Fin 8) (p : Fin 1024) : ∀ (t : ℕ) (ht : t < cfg0.N),
    (outsAt0 m c t ht).2.2 (ix2 n p)
      = minBelow (hrow m c n (rowIx (t / 16) (div_lt ⟨t, ht⟩) p)) (256 * (t % 16 + 1)) := by
  intro t
  induction t with
  | zero => intro ht; exact scr_first m c ⟨0, ht⟩ rfl n p
  | succ t ih =>
    intro ht
    by_cases h0 : (t + 1) % 16 = 0
    · exact scr_first m c ⟨t + 1, ht⟩ h0 n p
    · refine scr_next m c ⟨t + 1, ht⟩ h0 n p ?_
      have ih' := ih (Nat.lt_of_succ_lt ht)
      have e1 : t / 16 = (t + 1) / 16 := by omega
      have e2 : t % 16 + 1 = (t + 1) % 16 := by omega
      have eP : rowIx (t / 16) (div_lt ⟨t, Nat.lt_of_succ_lt ht⟩) p = rowIx ((t + 1) / 16) (div_lt ⟨t + 1, ht⟩) p :=
        Fin.ext (show 1024 * (t / 16) + p.val = 1024 * ((t + 1) / 16) + p.val by rw [e1])
      rw [eP, e2] at ih'
      exact ih'

/-! ### The outputs' blocks -/

/-- The column output's block at every point: the tile's column minima. -/
theorem col_out (t : Fin cfg0.N) (u : Fin 1) (n : Fin 8) (q : Fin 256) :
    (outsAt0 m c t.val t.isLt).2.1 (ix3 u n q)
      = Finset.univ.fold min ⊤ fun p : Fin 1024 =>
          hcol m c n (colIx (t.val % 16) (mod_lt t) q) (rowIx (t.val / 16) (div_lt t) p) := by
  have e : (outsAt0 m c t.val t.isLt).2.1 = k0_pay6 (F := Ideal) (B0 m c t) (B1 m c t) (B2 m c t) := by
    by_cases h0 : t.val % 16 = 0
    · have h1 : ¬t.val % 16 = 15 := by omega
      rw [outsAt0_A m c t h0 h1]
      dsimp only
      exact out5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)
    · by_cases h1 : t.val % 16 = 15
      · rw [outsAt0_C m c t h0 h1]
        dsimp only
        exact out5_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2
      · rw [outsAt0_B m c t h0 h1]
        dsimp only
        exact out5_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2
  rw [e, pay6_at]
  exact congrArg (fun f => Finset.univ.fold min ⊤ f) (funext fun p => part_col m c t n p q)

/-- The row output's block at the last point of a grid row: the finished rows. -/
theorem row_out (t : Fin cfg0.N) (h1 : t.val % 16 = 15) (n : Fin 8) (p : Fin 1024) :
    (outsAt0 m c t.val t.isLt).1 (ix2 n p)
      = rootPos Z ((Finset.univ.fold min ⊤ (hrow m c n (rowIx (t.val / 16) (div_lt t) p)))
          + X2 m c (ix2 n (rowIx (t.val / 16) (div_lt t) p))) := by
  have h0 : ¬t.val % 16 = 0 := by omega
  have e : (outsAt0 m c t.val t.isLt).1
      = k0_pay1 (F := Ideal) (k0_pay3 (F := Ideal) (B2 m c t)) ((outsAt0 m c t.val t.isLt).2.2) := by
    rw [scr_BC m c t h0, outsAt0_C m c t h0 h1]
    dsimp only
    exact out4_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2
  rw [e, pay1_at, scr_eq m c n p t.val t.isLt, B2_at, h1]
  rw [show 256 * (15 + 1) = 4096 from rfl, minBelow_all]

end Cert.KernelIdeal.Chain

end
-- ==== Proof.KArrays.lean ====
/-
  The two arrays the kernel region writes, as whole-array functions.

  The row output [8, 4096] is written in four blocks of 1024 points, one per grid row, each at the row's last point:
  at (n, P) it ends at `sqrt (max (min over all q of hrow n P q + |x_P|²) 0)`. The column output [4, 8, 4096] is written
  at every point, block (i, ·, j) of 256 points: at (i, n, Q) it ends at the minimum of `hcol n Q P` over the 1024
  points P of the i-th tile of `x`. Every index of either array lies in exactly the block of the point named from its
  coordinates (P / 1024; i and Q / 256), so the blocks cover the arrays.
-/
import proofs.«161333_j75685913690395_2_alg».proof.Proof.KChain

set_option maxRecDepth 16384

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)
open Cert.Chamfer Cert.KernelIdeal.Blocks Cert.KernelIdeal.Chain

variable (m : (ℓ : Loc nD τ sig) → Buf (Elt Ideal) ℓ) (c : Dev nD)

/-- The finished row of point `P` of `x`. -/
def rowK (n : Fin 8) (P : Fin 4096) : EReal :=
  rootPos Z ((Finset.univ.fold min ⊤ (hrow m c n P)) + X2 m c (ix2 n P))

/-- The partial column minimum of point `Q` of `y` over the `i`-th tile of `x`. -/
def colPart (i : Fin 4) (n : Fin 8) (Q : Fin 4096) : EReal :=
  Finset.univ.fold min ⊤ fun p : Fin 1024 => hcol m c n Q (rowIx i.val i.isLt p)

def G4 : S8x4096.Idx → EReal := fun i => rowK m c (i 0) (i 1)
def G5 : S4x8x4096.Idx → EReal := fun i => colPart m c (i 0) (i 1) (i 2)

/-! ### The row output -/

theorem flushed4_eq (t : Fin cfg0.N) (hf : (cfg0.win 4).flush t = true) :
    (dats m 0 c).flushed 4 t = ((cfg0.win 4).blk t).view.read (Elt Ideal) (G4 m c) := by
  have h1 : t.val % 16 = 15 := (flush0_4 t).mp hf
  obtain ⟨-, -, -, -, -, -, -, -, -, -, e40, e41, -⟩ := idx_facts t
  show (cfg0.win 4).cut (grid0.coords t) ((dats m 0 c).after 4 t) = _
  rw [after0_4]
  funext j
  obtain ⟨n, p, rfl⟩ : ∃ (n : Fin 8) (p : Fin 1024), j = ix2 n p := ⟨j 0, j 1, @eq_ix2 8 1024 j⟩
  rw [View.read_apply]
  show (outsAt0 m c t.val t.isLt).1 (ix2 n p) = G4 m c (((cfg0.win 4).blk t).view.emb (ix2 n p))
  rw [row_out m c t h1 n p]
  have e : ((cfg0.win 4).blk t).view.emb (ix2 n p) = ix2 n (rowIx (t.val / 16) (div_lt t) p) :=
    funext fun a => Fin.ext (by
      match a with
      | ⟨0, _⟩ => show win0_4.index t (0 : Fin 2) * 8 + 1 * n.val = n.val; rw [e40]; omega
      | ⟨1, _⟩ => show win0_4.index t (1 : Fin 2) * 1024 + 1 * p.val = 1024 * (t.val / 16) + p.val; rw [e41]; omega)
  rw [e]
  rfl

theorem mem_blk4 (t : Fin cfg0.N) (i : S8x4096.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v6_0).slice (win0_4.rect t)).set ↔ _
  rw [View.set_slice_whole, Rect.mem_set_unit]
  exact Iff.rfl

theorem cover4 (i : S8x4096.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hlt : 16 * ((i 1).val / 1024) + 15 < cfg0.N := by rw [N64]; omega
  obtain ⟨-, -, -, -, -, -, -, -, -, -, e40, e41, -⟩ := idx_facts ⟨16 * ((i 1).val / 1024) + 15, hlt⟩
  refine ⟨⟨16 * ((i 1).val / 1024) + 15, hlt⟩, (flush0_4 _).mpr (by show (16 * ((i 1).val / 1024) + 15) % 16 = 15; omega), ?_⟩
  rw [mem_blk4]
  intro a
  match a with
  | ⟨0, _⟩ =>
    show win0_4.index ⟨16 * ((i 1).val / 1024) + 15, hlt⟩ (0 : Fin 2) * 8 ≤ (i 0).val ∧ (i 0).val < win0_4.index ⟨16 * ((i 1).val / 1024) + 15, hlt⟩ (0 : Fin 2) * 8 + 8
    rw [e40]; omega
  | ⟨1, _⟩ =>
    show win0_4.index ⟨16 * ((i 1).val / 1024) + 15, hlt⟩ (1 : Fin 2) * 1024 ≤ (i 1).val ∧ (i 1).val < win0_4.index ⟨16 * ((i 1).val / 1024) + 15, hlt⟩ (1 : Fin 2) * 1024 + 1024
    rw [e41]; show (16 * ((i 1).val / 1024) + 15) / 16 * 1024 ≤ (i 1).val ∧ (i 1).val < (16 * ((i 1).val / 1024) + 15) / 16 * 1024 + 1024; omega

/-- The row output after the region. -/
theorem final4 : (dats m 0 c).arrAt 4 cfg0.N = G4 m c :=
  (dats m 0 c).arrAt_eq_of_cover 4 (G4 m c) (flushed4_eq m c) cover4

/-! ### The column output -/

theorem flushed5_eq (t : Fin cfg0.N) (hf : (cfg0.win 5).flush t = true) :
    (dats m 0 c).flushed 5 t = ((cfg0.win 5).blk t).view.read (Elt Ideal) (G5 m c) := by
  obtain ⟨-, -, -, -, -, -, -, -, -, -, -, -, e50, e51, e52⟩ := idx_facts t
  show (cfg0.win 5).cut (grid0.coords t) ((dats m 0 c).after 5 t) = _
  rw [after0_5]
  funext j
  obtain ⟨u, n, q, rfl⟩ : ∃ (u : Fin 1) (n : Fin 8) (q : Fin 256), j = ix3 u n q := ⟨j 0, j 1, j 2, @eq_ix3 1 8 256 j⟩
  rw [View.read_apply]
  show (outsAt0 m c t.val t.isLt).2.1 (ix3 u n q) = G5 m c (((cfg0.win 5).blk t).view.emb (ix3 u n q))
  rw [col_out m c t u n q]
  have e : ((cfg0.win 5).blk t).view.emb (ix3 u n q) = ix3 (⟨t.val / 16, div_lt t⟩ : Fin 4) n (colIx (t.val % 16) (mod_lt t) q) :=
    funext fun a => Fin.ext (by
      have hu : u.val = 0 := by omega
      match a with
      | ⟨0, _⟩ => show win0_5.index t (0 : Fin 3) * 1 + 1 * u.val = t.val / 16; rw [e50]; omega
      | ⟨1, _⟩ => show win0_5.index t (1 : Fin 3) * 8 + 1 * n.val = n.val; rw [e51]; omega
      | ⟨2, _⟩ => show win0_5.index t (2 : Fin 3) * 256 + 1 * q.val = 256 * (t.val % 16) + q.val; rw [e52]; omega)
  rw [e]
  rfl

theorem mem_blk5 (t : Fin cfg0.N) (i : S4x8x4096.Idx) :
    i ∈ ((cfg0.win 5).blk t).view.set ↔ ∀ a : Fin 3, win0_5.index t a * S1x8x256.size a ≤ (i a).val ∧ (i a).val < win0_5.index t a * S1x8x256.size a + S1x8x256.size a := by
  show i ∈ ((View.whole main_v6_1).slice (win0_5.rect t)).set ↔ _
  rw [View.set_slice_whole, Rect.mem_set_unit]
  exact Iff.rfl

theorem cover5 (i : S4x8x4096.Idx) : ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 4096 := (i 2).isLt
  have hlt : 16 * (i 0).val + (i 2).val / 256 < cfg0.N := by rw [N64]; omega
  obtain ⟨-, -, -, -, -, -, -, -, -, -, -, -, e50, e51, e52⟩ := idx_facts ⟨16 * (i 0).val + (i 2).val / 256, hlt⟩
  refine ⟨⟨16 * (i 0).val + (i 2).val / 256, hlt⟩, flush0_5 _, ?_⟩
  rw [mem_blk5]
  intro a
  match a with
  | ⟨0, _⟩ =>
    show win0_5.index ⟨16 * (i 0).val + (i 2).val / 256, hlt⟩ (0 : Fin 3) * 1 ≤ (i 0).val ∧ (i 0).val < win0_5.index ⟨16 * (i 0).val + (i 2).val / 256, hlt⟩ (0 : Fin 3) * 1 + 1
    rw [e50]; show (16 * (i 0).val + (i 2).val / 256) / 16 * 1 ≤ (i 0).val ∧ (i 0).val < (16 * (i 0).val + (i 2).val / 256) / 16 * 1 + 1; omega
  | ⟨1, _⟩ =>
    show win0_5.index ⟨16 * (i 0).val + (i 2).val / 256, hlt⟩ (1 : Fin 3) * 8 ≤ (i 1).val ∧ (i 1).val < win0_5.index ⟨16 * (i 0).val + (i 2).val / 256, hlt⟩ (1 : Fin 3) * 8 + 8
    rw [e51]; omega
  | ⟨2, _⟩ =>
    show win0_5.index ⟨16 * (i 0).val + (i 2).val / 256, hlt⟩ (2 : Fin 3) * 256 ≤ (i 2).val ∧ (i 2).val < win0_5.index ⟨16 * (i 0).val + (i 2).val / 256, hlt⟩ (2 : Fin 3) * 256 + 256
    rw [e52]; show (16 * (i 0).val + (i 2).val / 256) % 16 * 256 ≤ (i 2).val ∧ (i 2).val < (16 * (i 0).val + (i 2).val / 256) % 16 * 256 + 256; omega

/-- The column output after the region. -/
theorem final5 : (dats m 0 c).arrAt 5 cfg0.N = G5 m c :=
  (dats m 0 c).arrAt_eq_of_cover 5 (G5 m c) (flushed5_eq m c) cover5

end Cert.KernelIdeal.Arrays

end
-- ==== Proof.KTail.lean ====
/-
  The host operations after the kernel region, and the kernel program's run read at its result.

  After the region the program reduces the column output over its four partial blocks (a minimum over the tile axis),
  adds `|y_Q|²`, clamps at zero and takes the root — the column direction finished on the host —, sums each direction
  over its 4096 points, divides by 4096, adds the two means and halves. As a function of the two arrays the region wrote
  and the norms of `y`: at batch `n`,
    `((0 + ∑_P rows (n, P)) / 4096 + (0 + ∑_Q sqrt (max (min_i cols (i, n, Q) + |y_Q|²) 0)) / 4096) / 2`.
-/
import proofs.«161333_j75685913690395_2_alg».proof.Proof.KArrays
import proofs.«161333_j75685913690395_2_alg».proof.Proof.LibMinReduce
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.StableHlo
open Cert.Chamfer Cert.KernelIdeal.Blocks Cert.KernelIdeal.Chain Cert.KernelIdeal.Arrays Cert.LibMinReduce

/-- The operations after the region, composed: the program's result from the row output `A4`, the column output
    `A5` and the norms `Yn` of `y`. -/
def tail (A4 : FVec Ideal S8x4096 .f32) (A5 : FVec Ideal S4x8x4096 .f32) (Yn : FVec Ideal S8x4096 .f32) : FVec Ideal S8 .f32 :=
  Host.divf (F := Ideal)
    (addf (F := Ideal)
      (Host.divf (F := Ideal)
        (Host.reduceAdd (F := Ideal) A4 (constant (F := Ideal) S_ .f32 0x00000000#32) reducesTo_S8x4096_S8_d1 h_S_)
        (broadcastInDim S8 ![] bcast_S_S8 (constant (F := Ideal) S_ .f32 0x45800000#32)))
      (Host.divf (F := Ideal)
        (Host.reduceAdd (F := Ideal)
          (Host.sqrt (F := Ideal)
            (maximumf (F := Ideal)
              (addf (F := Ideal)
                (Host.reduce (FloatOps.minimumf (F := Ideal) (φ := .f32)) A5 (constant (F := Ideal) S_ .f32 0x7F800000#32)
                  reducesTo_S4x8x4096_S8x4096_d0 h_S_)
                Yn)
              (broadcastInDim S8x4096 ![] bcast_S_S8x4096 (constant (F := Ideal) S_ .f32 0x00000000#32))))
          (constant (F := Ideal) S_ .f32 0x00000000#32) reducesTo_S8x4096_S8_d1 h_S_)
        (broadcastInDim S8 ![] bcast_S_S8 (constant (F := Ideal) S_ .f32 0x45800000#32))))
    (broadcastInDim S8 ![] bcast_S_S8 (constant (F := Ideal) S_ .f32 0x40000000#32))

/-- The host's sum of a [8, 4096] array over its points, from the zero. -/
theorem sum_points (A : FVec Ideal S8x4096 .f32) (n : Fin 8) :
    Host.reduceAdd (F := Ideal) A (constant (F := Ideal) S_ .f32 0x00000000#32) reducesTo_S8x4096_S8_d1 h_S_ (ix1 n)
      = Z + ∑ P : Fin 4096, A (ix2 n P) := by
  simp only [Host.reduceAdd, Ideal.hostReduceAdd_def]
  rw [Ideal.hostReduceAdd_single reducesTo_S8x4096_S8_d1 (by decide)]
  refine congrArg₂ (· + ·) rfl (Finset.sum_congr rfl fun k _ => ?_)
  exact congrArg A (funext fun a => Fin.ext (by match a with | ⟨0, _⟩ => rfl | ⟨1, _⟩ => rfl))

/-- The column direction finished on the host, at point `Q` of `y`. -/
def colK (A5 : FVec Ideal S4x8x4096 .f32) (Yn : FVec Ideal S8x4096 .f32) (n : Fin 8) (Q : Fin 4096) : EReal :=
  rootPos Z ((Finset.univ.fold min ⊤ fun i : Fin 4 => A5 (ix3 i n Q)) + Yn (ix2 n Q))

/-- Adding the norms, clamping at zero and taking the root are pointwise. -/
theorem finish_at (R Yn : FVec Ideal S8x4096 .f32) (j : S8x4096.Idx) :
    Host.sqrt (F := Ideal)
        (maximumf (F := Ideal) (addf (F := Ideal) R Yn)
          (broadcastInDim S8x4096 ![] bcast_S_S8x4096 (constant (F := Ideal) S_ .f32 0x00000000#32))) j
      = rootPos Z (R j + Yn j) := rfl

theorem finish_col (A5 : FVec Ideal S4x8x4096 .f32) (Yn : FVec Ideal S8x4096 .f32) (n : Fin 8) (Q : Fin 4096) :
    Host.sqrt (F := Ideal)
        (maximumf (F := Ideal)
          (addf (F := Ideal)
            (Host.reduce (FloatOps.minimumf (F := Ideal) (φ := .f32)) A5 (constant (F := Ideal) S_ .f32 0x7F800000#32)
              reducesTo_S4x8x4096_S8x4096_d0 h_S_)
            Yn)
          (broadcastInDim S8x4096 ![] bcast_S_S8x4096 (constant (F := Ideal) S_ .f32 0x00000000#32))) (ix2 n Q)
      = colK A5 Yn n Q := by
  refine (finish_at _ Yn (ix2 n Q)).trans ?_
  unfold colK
  refine congrArg (fun s => rootPos Z (s + Yn (ix2 n Q))) ?_
  refine (hostReduce_minimumf_single A5 _ reducesTo_S4x8x4096_S8x4096_d0 (by decide) h_S_ rfl (ix2 n Q)).trans ?_
  show Finset.univ.fold min ⊤ (fun i : Fin 4 => _) = _
  refine congrArg (fun f => Finset.univ.fold min ⊤ f) (funext fun i => ?_)
  exact congrArg A5 (funext fun a => Fin.ext (by match a with | ⟨0, _⟩ => rfl | ⟨1, _⟩ => rfl | ⟨2, _⟩ => rfl))

/-- The program's result at batch `n`. -/
theorem tail_at (A4 : FVec Ideal S8x4096 .f32) (A5 : FVec Ideal S4x8x4096 .f32) (Yn : FVec Ideal S8x4096 .f32) (n : Fin 8) :
    tail A4 A5 Yn (ix1 n)
      = Ideal.div (Ideal.div (Z + ∑ P : Fin 4096, A4 (ix2 n P)) CNT + Ideal.div (Z + ∑ Q : Fin 4096, colK A5 Yn n Q) CNT) TWO := by
  unfold tail
  show Ideal.div (Ideal.div (Host.reduceAdd (F := Ideal) A4 (constant (F := Ideal) S_ .f32 0x00000000#32) reducesTo_S8x4096_S8_d1 h_S_ (ix1 n)) CNT
      + Ideal.div (Host.reduceAdd (F := Ideal) _ (constant (F := Ideal) S_ .f32 0x00000000#32) reducesTo_S8x4096_S8_d1 h_S_ (ix1 n)) CNT) TWO = _
  rw [sum_points, sum_points]
  exact congrArg (fun s => Ideal.div (Ideal.div (Z + ∑ P : Fin 4096, A4 (ix2 n P)) CNT + Ideal.div (Z + s) CNT) TWO)
    (Finset.sum_congr rfl fun Q _ => finish_col A5 Yn n Q)

variable (m : (ℓ : Loc nD τ sig) → Buf (Elt Ideal) ℓ) (c : Dev nD)

/-- What the program's result buffer holds after the lines that follow the region. -/
theorem tail_eq : Pipeline.afterTail₀ cfgs (dats m) 0 (V0 m) [hostOps1] c main_v20 = tail (G4 m c) (G5 m c) (Y2 m c) := by
  unfold Pipeline.afterTail₀
  show StableHlo.after hostOps1 _ (Proc.devRef .tc main_v20) = _
  after_results
  have e4 : Pipeline.withArrays (cfgs 0).spec c (V0 m c) (fun w => (dats m 0 c).arrAt w (cfgs 0).N) (Proc.devRef .tc main_v6_0) = G4 m c :=
    (Pipeline.withArrays_arr spec0 launch0.win.arr_inj c _ _ 4).trans (final4 m c)
  have e5 : Pipeline.withArrays (cfgs 0).spec c (V0 m c) (fun w => (dats m 0 c).arrAt w (cfgs 0).N) (Proc.devRef .tc main_v6_1) = G5 m c :=
    (Pipeline.withArrays_arr spec0 launch0.win.arr_inj c _ _ 5).trans (final5 m c)
  have ey : Pipeline.withArrays (cfgs 0).spec c (V0 m c) (fun w => (dats m 0 c).arrAt w (cfgs 0).N) (Proc.devRef .tc main_v5) = Y2 m c :=
    (Pipeline.withArrays_arr spec0 launch0.win.arr_inj c _ _ 3).trans
      (((dats m 0 c).arrAt_in 3 rfl _).trans (A_eq m c 3))
  rw [e4, e5, ey]
  rfl

/-- The kernel program's run, read: its result at the tail of the arrays, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v20) = tail (G4 m c) (G5 m c) (Y2 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Tail

end
-- ==== Proof.KResult.lean ====
/-
  The kernel program computes the specification: its result at batch `n` is `Cert.Chamfer.chamfer x y n`.

  Before the region the program narrows `x` and `y` (the identity on extended reals) and sums their squares over the 128
  coordinates, so the arrays the region finds are `x`, `y`, `|x_P|²`, `|y_Q|²`. The region's rows then are, by the row law
  (a monotone map commutes with a minimum; the own norm may be added after the cross term), the distances from `x_P` to
  the nearest `y`; the column direction — the minimum of the four partial blocks is the minimum over all 4096 points
  of `x`, then the column law — the distances from `y_Q` to the nearest `x`; the means and the halving are the
  reference's own.
-/
import proofs.«161333_j75685913690395_2_alg».proof.Proof.KTail

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.StableHlo
open Cert.Chamfer Cert.KernelIdeal.Blocks Cert.KernelIdeal.Chain Cert.KernelIdeal.Arrays Cert.KernelIdeal.Tail

variable (m : (ℓ : Loc nD τ sig) → Buf (Elt Ideal) ℓ) (c : Dev nD)

/-- The two clouds as launched. -/
def xs : Cloud := m ((c.tc : Thread nD τ).loc main_arg0)
def ys : Cloud := m ((c.tc : Thread nD τ).loc main_arg1)

/-! ### The arrays the region finds -/

theorem XB_eq : XB m c = xs m c := by
  unfold XB xs
  show StableHlo.after hostOps0 (fun b => m (c, b)) (Proc.devRef .tc main_v0) = _
  after_results
  rfl

theorem YB_eq : YB m c = ys m c := by
  unfold YB ys
  show StableHlo.after hostOps0 (fun b => m (c, b)) (Proc.devRef .tc main_v1) = _
  after_results
  rfl

/-- The host's sum of squares over the coordinates, from the zero. -/
theorem sq_at (x : FVec Ideal S8x4096x128 .f32) (n : Fin 8) (P : Fin 4096) :
    Host.reduceAdd (F := Ideal) (mulf (F := Ideal) x x) (constant (F := Ideal) S_ .f32 0x00000000#32)
        reducesTo_S8x4096x128_S8x4096_d2 h_S_ (ix2 n P) = sqNorm x n P := by
  simp only [Host.reduceAdd, Ideal.hostReduceAdd_def]
  rw [Ideal.hostReduceAdd_single reducesTo_S8x4096x128_S8x4096_d2 (by decide)]
  unfold sqNorm
  refine congrArg₂ (· + ·) rfl (Finset.sum_congr rfl fun k _ => ?_)
  have e : (by decide : S8x4096x128.Reduces [2] S8x4096).lift (ix2 n P) k = ix3 n P k :=
    funext fun a => Fin.ext (by match a with | ⟨0, _⟩ => rfl | ⟨1, _⟩ => rfl | ⟨2, _⟩ => rfl)
  show x _ * x _ = _
  rw [e]
  rfl

theorem X2_at (n : Fin 8) (P : Fin 4096) : X2 m c (ix2 n P) = sqNorm (xs m c) n P := by
  have e : X2 m c = Host.reduceAdd (F := Ideal) (mulf (F := Ideal) (xs m c) (xs m c)) (constant (F := Ideal) S_ .f32 0x00000000#32)
      reducesTo_S8x4096x128_S8x4096_d2 h_S_ := by
    unfold X2 xs
    show StableHlo.after hostOps0 (fun b => m (c, b)) (Proc.devRef .tc main_v3) = _
    after_results
  rw [e, sq_at]

theorem Y2_at (n : Fin 8) (Q : Fin 4096) : Y2 m c (ix2 n Q) = sqNorm (ys m c) n Q := by
  have e : Y2 m c = Host.reduceAdd (F := Ideal) (mulf (F := Ideal) (ys m c) (ys m c)) (constant (F := Ideal) S_ .f32 0x00000000#32)
      reducesTo_S8x4096x128_S8x4096_d2 h_S_ := by
    unfold Y2 ys
    show StableHlo.after hostOps0 (fun b => m (c, b)) (Proc.devRef .tc main_v5) = _
    after_results
  rw [e, sq_at]

/-! ### The partial terms -/

theorem hrow_eq (n : Fin 8) (P : Fin 4096) :
    hrow m c n P = fun q => sqNorm (ys m c) n q - TWO * dot (xs m c) (ys m c) n P q := by
  funext q
  unfold hrow dot
  rw [Y2_at, XB_eq, YB_eq]

theorem hcol_eq (n : Fin 8) (Q : Fin 4096) :
    hcol m c n Q = fun P => sqNorm (xs m c) n P - TWO * dot (xs m c) (ys m c) n P Q := by
  funext P
  unfold hcol dot
  rw [X2_at, XB_eq, YB_eq]

/-! ### The two directions -/

/-- The region's rows are the distances to the nearest `y`. -/
theorem rowK_eq (n : Fin 8) (P : Fin 4096) : rowK m c n P = rowMin (xs m c) (ys m c) n P := by
  unfold rowK rowMin cost
  rw [hrow_eq, X2_at, Z_eq]
  exact row_law (sqNorm (xs m c) n P) (fun q => sqNorm (ys m c) n q) (fun q => TWO * dot (xs m c) (ys m c) n P q)

/-- The host's finished columns are the distances to the nearest `x`. -/
theorem colK_eq (n : Fin 8) (Q : Fin 4096) : colK (G5 m c) (Y2 m c) n Q = colMin (xs m c) (ys m c) n Q := by
  unfold colK colMin cost
  have e : (Finset.univ.fold min ⊤ fun i : Fin 4 => G5 m c (ix3 i n Q)) = Finset.univ.fold min ⊤ (hcol m c n Q) :=
    fold_min_tiles (hcol m c n Q) 4 1024 rfl
  rw [e, hcol_eq, Y2_at, Z_eq]
  exact col_law (sqNorm (ys m c) n Q) (fun P => sqNorm (xs m c) n P) (fun P => TWO * dot (xs m c) (ys m c) n P Q)

/-- THE KERNEL PROGRAM'S RESULT is the specification. -/
theorem result_eq : tail (G4 m c) (G5 m c) (Y2 m c) = fun i => chamfer (xs m c) (ys m c) (i 0) := by
  funext i
  obtain ⟨n, rfl⟩ : ∃ n : Fin 8, i = ix1 n := ⟨i 0, eq_ix1 i⟩
  rw [tail_at]
  unfold chamfer
  have e4 : ∀ P : Fin 4096, G4 m c (ix2 n P) = rowMin (xs m c) (ys m c) n P := fun P => rowK_eq m c n P
  simp only [e4, colK_eq]

end Cert.KernelIdeal.Result

end
-- ==== Proof.lean ====
/-
  The Chamfer distance of two batches of point clouds, blocked and fused, against its plain definition — equal on the
  extended reals.

  Both programs take `x, y` : eight clouds of 4096 points in 128 coordinates and return, per batch,
  `(mean_p min_q c(p, q) + mean_q min_p c(p, q)) / 2` with `c(p, q) = sqrt (max ((|x_p|² + |y_q|²) - 2 (x_p · y_q)) 0)`.
  The reference forms the whole 4096 × 4096 cost matrix. The kernel never does: on a 4 × 16 grid of tiles
  (1024 points of `x` by 256 points of `y`) it forms each tile's products once and keeps only running minima of the
  partial terms — for the rows `|y_q|² - 2 (x_p · y_q)`, carried in a scratch buffer along a grid row and finished at the
  row's last tile as `sqrt (max (running + |x_p|²) 0)`; for the columns `|x_p|² - 2 (x_p · y_q)`, one partial minimum per
  tile of `x`, combined and finished by the host operations that follow the region.

  Why the two agree (Proof/ChamferSpec.lean): a minimum taken tile by tile is the minimum; a monotone map — adding a
  fixed extended real, `sqrt (max · 0)` — commutes with the minimum of a non-empty finite family; and addition is
  commutative and associative, so a norm may be added before or after the cross term. None of these laws needs the
  entries to be finite, so the precondition is not opened. Narrowing to a shorter float format is the identity here,
  and the kernel's matrix product into a zero accumulator is the reference's contraction.

  The modules: ChamferSpec (the mathematics and the specification), RefChamfer (the reference computes it),
  KPieces / KPay (what the kernel body stores, as its arithmetic at an index), KBlocks (where a block sits in its
  array), KChain (the running minimum, by induction along the grid), KArrays (the two arrays the region writes),
  KTail (the host operations after the region), KResult (the kernel program computes the specification).
-/
import proofs.«161333_j75685913690395_2_alg».proof.Defs
import proofs.«161333_j75685913690395_2_alg».proof.Proof.Gen.Kernel
import proofs.«161333_j75685913690395_2_alg».proof.Proof.Gen.Kernel.Skeleton
import proofs.«161333_j75685913690395_2_alg».proof.Proof.Gen.Kernel.Launch
import proofs.«161333_j75685913690395_2_alg».proof.Proof.Gen.Kernel.Points
import proofs.«161333_j75685913690395_2_alg».proof.Proof.Gen.Kernel.Frame
import proofs.«161333_j75685913690395_2_alg».proof.Proof.Gen.KernelIdeal
import proofs.«161333_j75685913690395_2_alg».proof.Proof.Gen.KernelIdeal.Skeleton
import proofs.«161333_j75685913690395_2_alg».proof.Proof.Gen.KernelIdeal.Launch
import proofs.«161333_j75685913690395_2_alg».proof.Proof.Gen.KernelIdeal.Points
import proofs.«161333_j75685913690395_2_alg».proof.Proof.Gen.KernelIdeal.Frame
import proofs.«161333_j75685913690395_2_alg».proof.Proof.Gen.ReferenceIdeal
import proofs.«161333_j75685913690395_2_alg».proof.Proof.Gen.ReferenceIdeal.Run
import proofs.«161333_j75685913690395_2_alg».proof.Proof.Gen.ReferenceIdeal.Read
import proofs.«161333_j75685913690395_2_alg».proof.Proof.Gen.Pre_finite_inputs
import proofs.«161333_j75685913690395_2_alg».proof.Proof.RefChamfer
import proofs.«161333_j75685913690395_2_alg».proof.Proof.KResult
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- Both programs end with the Chamfer distance of the clouds they were launched with. -/
theorem algebraic : Cert.algebraic_KernelIdeal_ReferenceIdeal := by
  intro m ρ m' ρ' _ hagree
  refine ⟨fun c i => Cert.Chamfer.chamfer (Cert.KernelIdeal.Result.xs m c) (Cert.KernelIdeal.Result.ys m c) (i 0), ?_, ?_⟩
  · exact (θ_run Cert.KernelIdeal.defs _ _).mono
      (fun _ h c => ⟨(h c).1.trans (Cert.KernelIdeal.Result.result_eq m c), (h c).2.1, (h c).2.2⟩)
      (Cert.KernelIdeal.Tail.run m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v26_eq, Cert.Chamfer.Ref.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
